-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x1x25 : Shape := ⟨4, ![1, 64, 1, 25]⟩
abbrev S1x9x64x25 : Shape := ⟨4, ![1, 9, 64, 25]⟩
abbrev S3x25x25 : Shape := ⟨3, ![3, 25, 25]⟩
abbrev S_ : Shape := ⟨0, ![]⟩

class Facts : Prop where
  bcast_S_S1x64x1x25 : S_.BroadcastsInDim S1x64x1x25 (![] : Fin 0 → Fin S1x64x1x25.rank)
  reducesTo_S1x64x1x25_S_d0_1_2_3 : S1x64x1x25.ReducesTo [0, 1, 2, 3] S_
  h_S_ : 0 < S_.numel
  bcast_S_S1x9x64x25 : S_.BroadcastsInDim S1x9x64x25 (![] : Fin 0 → Fin S1x9x64x25.rank)
  reducesTo_S1x9x64x25_S_d0_1_2_3 : S1x9x64x25.ReducesTo [0, 1, 2, 3] S_
  bcast_S_S3x25x25 : S_.BroadcastsInDim S3x25x25 (![] : Fin 0 → Fin S3x25x25.rank)
  reducesTo_S3x25x25_S_d0_1_2 : S3x25x25.ReducesTo [0, 1, 2] S_

variable [Facts]

def fn_part2 {F : FTy → Type} [FloatOps F] (main_arg7 : FVec F S3x25x25 .f32) (main_v33 : IVec S_ 1) : IVec S_ 1 :=
  let main_v34 : FVec F S3x25x25 .f32 := Host.absf main_arg7
  let main_cst_12 : FVec F S_ .f32 := constant S_ .f32 0x7F800000#32
  let main_v35 : FVec F S3x25x25 .f32 := broadcastInDim S3x25x25 ![] bcast_S_S3x25x25 main_cst_12
  let main_v36 : IVec S3x25x25 1 := cmpf .olt main_v34 main_v35
  let main_c_13 : IVec S_ 1 := constantI S_ 1 1#1
  let main_v37 : IVec S_ 1 := (fun x v => Host.reduce IntOp.andi x v reducesTo_S3x25x25_S_d0_1_2 h_S_) main_v36 main_c_13
  let main_v38 : IVec S_ 1 := andi main_v33 main_v37
  main_v38

def fn_part1 {F : FTy → Type} [FloatOps F] (main_arg4 : FVec F S1x9x64x25 .f32) (main_arg5 : FVec F S3x25x25 .f32) (main_arg6 : FVec F S3x25x25 .f32) (main_arg7 : FVec F S3x25x25 .f32) (main_v13 : IVec S_ 1) (main_v16 : IVec S1x64x1x25 1) : IVec S_ 1 :=
  let main_c_5 : IVec S_ 1 := constantI S_ 1 1#1
  let main_v17 : IVec S_ 1 := (fun x v => Host.reduce IntOp.andi x v reducesTo_S1x64x1x25_S_d0_1_2_3 h_S_) main_v16 main_c_5
  let main_v18 : IVec S_ 1 := andi main_v13 main_v17
  let main_v19 : FVec F S1x9x64x25 .f32 := Host.absf main_arg4
  let main_cst_6 : FVec F S_ .f32 := constant S_ .f32 0x7F800000#32
  let main_v20 : FVec F S1x9x64x25 .f32 := broadcastInDim S1x9x64x25 ![] bcast_S_S1x9x64x25 main_cst_6
  let main_v21 : IVec S1x9x64x25 1 := cmpf .olt main_v19 main_v20
  let main_c_7 : IVec S_ 1 := constantI S_ 1 1#1
  let main_v22 : IVec S_ 1 := (fun x v => Host.reduce IntOp.andi x v reducesTo_S1x9x64x25_S_d0_1_2_3 h_S_) main_v21 main_c_7
  let main_v23 : IVec S_ 1 := andi main_v18 main_v22
  let main_v24 : FVec F S3x25x25 .f32 := Host.absf main_arg5
  let main_cst_8 : FVec F S_ .f32 := constant S_ .f32 0x7F800000#32
  let main_v25 : FVec F S3x25x25 .f32 := broadcastInDim S3x25x25 ![] bcast_S_S3x25x25 main_cst_8
  let main_v26 : IVec S3x25x25 1 := cmpf .olt main_v24 main_v25
  let main_c_9 : IVec S_ 1 := constantI S_ 1 1#1
  let main_v27 : IVec S_ 1 := (fun x v => Host.reduce IntOp.andi x v reducesTo_S3x25x25_S_d0_1_2 h_S_) main_v26 main_c_9
  let main_v28 : IVec S_ 1 := andi main_v23 main_v27
  let main_v29 : FVec F S3x25x25 .f32 := Host.absf main_arg6
  let main_cst_10 : FVec F S_ .f32 := constant S_ .f32 0x7F800000#32
  let main_v30 : FVec F S3x25x25 .f32 := broadcastInDim S3x25x25 ![] bcast_S_S3x25x25 main_cst_10
  let main_v31 : IVec S3x25x25 1 := cmpf .olt main_v29 main_v30
  let main_c_11 : IVec S_ 1 := constantI S_ 1 1#1
  let main_v32 : IVec S_ 1 := (fun x v => Host.reduce IntOp.andi x v reducesTo_S3x25x25_S_d0_1_2 h_S_) main_v31 main_c_11
  let main_v33 : IVec S_ 1 := andi main_v28 main_v32
  fn_part2 (F := F) main_arg7 main_v33

def fn {F : FTy → Type} [FloatOps F] (main_arg0 : FVec F S1x64x1x25 .f32) (main_arg1 : FVec F S1x64x1x25 .f32) (main_arg2 : FVec F S1x64x1x25 .f32) (main_arg3 : FVec F S1x64x1x25 .f32) (main_arg4 : FVec F S1x9x64x25 .f32) (main_arg5 : FVec F S3x25x25 .f32) (main_arg6 : FVec F S3x25x25 .f32) (main_arg7 : FVec F S3x25x25 .f32) : IVec S_ 1 :=
  let main_v0 : FVec F S1x64x1x25 .f32 := Host.absf main_arg0
  let main_cst : FVec F S_ .f32 := constant S_ .f32 0x7F800000#32
  let main_v1 : FVec F S1x64x1x25 .f32 := broadcastInDim S1x64x1x25 ![] bcast_S_S1x64x1x25 main_cst
  let main_v2 : IVec S1x64x1x25 1 := cmpf .olt main_v0 main_v1
  let main_c : IVec S_ 1 := constantI S_ 1 1#1
  let main_v3 : IVec S_ 1 := (fun x v => Host.reduce IntOp.andi x v reducesTo_S1x64x1x25_S_d0_1_2_3 h_S_) main_v2 main_c
  let main_v4 : FVec F S1x64x1x25 .f32 := Host.absf main_arg1
  let main_cst_0 : FVec F S_ .f32 := constant S_ .f32 0x7F800000#32
  let main_v5 : FVec F S1x64x1x25 .f32 := broadcastInDim S1x64x1x25 ![] bcast_S_S1x64x1x25 main_cst_0
  let main_v6 : IVec S1x64x1x25 1 := cmpf .olt main_v4 main_v5
  let main_c_1 : IVec S_ 1 := constantI S_ 1 1#1
  let main_v7 : IVec S_ 1 := (fun x v => Host.reduce IntOp.andi x v reducesTo_S1x64x1x25_S_d0_1_2_3 h_S_) main_v6 main_c_1
  let main_v8 : IVec S_ 1 := andi main_v3 main_v7
  let main_v9 : FVec F S1x64x1x25 .f32 := Host.absf main_arg2
  let main_cst_2 : FVec F S_ .f32 := constant S_ .f32 0x7F800000#32
  let main_v10 : FVec F S1x64x1x25 .f32 := broadcastInDim S1x64x1x25 ![] bcast_S_S1x64x1x25 main_cst_2
  let main_v11 : IVec S1x64x1x25 1 := cmpf .olt main_v9 main_v10
  let main_c_3 : IVec S_ 1 := constantI S_ 1 1#1
  let main_v12 : IVec S_ 1 := (fun x v => Host.reduce IntOp.andi x v reducesTo_S1x64x1x25_S_d0_1_2_3 h_S_) main_v11 main_c_3
  let main_v13 : IVec S_ 1 := andi main_v8 main_v12
  let main_v14 : FVec F S1x64x1x25 .f32 := Host.absf main_arg3
  let main_cst_4 : FVec F S_ .f32 := constant S_ .f32 0x7F800000#32
  let main_v15 : FVec F S1x64x1x25 .f32 := broadcastInDim S1x64x1x25 ![] bcast_S_S1x64x1x25 main_cst_4
  let main_v16 : IVec S1x64x1x25 1 := cmpf .olt main_v14 main_v15
  fn_part1 (F := F) main_arg4 main_arg5 main_arg6 main_arg7 main_v13 main_v16
-- ==== Kernel.lean ====
abbrev S1x64x1x25 : Shape := ⟨4, ![1, 64, 1, 25]⟩
abbrev S1x9x64x25 : Shape := ⟨4, ![1, 9, 64, 25]⟩
abbrev S3x25x25 : Shape := ⟨3, ![3, 25, 25]⟩
abbrev S1x8x64x25 : Shape := ⟨4, ![1, 8, 64, 25]⟩
abbrev S64x25 : Shape := ⟨2, ![64, 25]⟩
abbrev S8x64x25 : Shape := ⟨3, ![8, 64, 25]⟩

abbrev nBuf : Space → Nat
  | .hbm => 9
  | .vmem => 6
  | .smem => 0
  | _ => 0

abbrev bufTy : (tb : Table) → Fin (tcTables nBuf tb) → BufTy
  | .hbm, ⟨0, _⟩ => ⟨S1x64x1x25, .f32⟩
  | .hbm, ⟨1, _⟩ => ⟨S1x64x1x25, .f32⟩
  | .hbm, ⟨2, _⟩ => ⟨S1x64x1x25, .f32⟩
  | .hbm, ⟨3, _⟩ => ⟨S1x64x1x25, .f32⟩
  | .hbm, ⟨4, _⟩ => ⟨S1x9x64x25, .f32⟩
  | .hbm, ⟨5, _⟩ => ⟨S3x25x25, .f32⟩
  | .hbm, ⟨6, _⟩ => ⟨S3x25x25, .f32⟩
  | .hbm, ⟨7, _⟩ => ⟨S3x25x25, .f32⟩
  | .hbm, ⟨8, _⟩ => ⟨S1x64x1x25, .f32⟩
  | .local _ .vmem, ⟨0, _⟩ => ⟨S1x64x1x25, .f32⟩
  | .local _ .vmem, ⟨1, _⟩ => ⟨S1x64x1x25, .f32⟩
  | .local _ .vmem, ⟨2, _⟩ => ⟨S1x64x1x25, .f32⟩
  | .local _ .vmem, ⟨3, _⟩ => ⟨S1x64x1x25, .f32⟩
  | .local _ .vmem, ⟨4, _⟩ => ⟨S1x8x64x25, .f32⟩
  | .local _ .vmem, ⟨5, _⟩ => ⟨S1x64x1x25, .f32⟩
  | _, _ => ⟨S1x64x1x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S1x64x1x25 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64x1x25 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64x1x25 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64x1x25 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x64x25 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64x1x25 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S1x64x1x25_S1x64x1x25_0_0_0_0 : ∀ a, (![0, 0, 0, 0] : Fin 4 → Nat) a + S1x64x1x25.size a ≤ S1x64x1x25.size a
  h_S1x64x1x25 : 0 < S1x64x1x25.numel
  shapeCasts_S1x64x1x25_S64x25 : S1x64x1x25.ShapeCasts S64x25
  inb_S1x8x64x25_S1x8x64x25_0_0_0_0 : ∀ a, (![0, 0, 0, 0] : Fin 4 → Nat) a + S1x8x64x25.size a ≤ S1x8x64x25.size a
  h_S1x8x64x25 : 0 < S1x8x64x25.numel
  shapeCasts_S1x8x64x25_S8x64x25 : S1x8x64x25.ShapeCasts S8x64x25
  reduces_S8x64x25_S64x25 : S8x64x25.Reduces [0] S64x25
  shapeCasts_S64x25_S1x64x1x25 : S64x25.ShapeCasts S1x64x1x25
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64x1x25.size a ≤ S1x64x1x25.size a
  hwx0_0 : ∀ i : grid0.Coords, EltTy.bits .f32 = 32 ∨ (Rect.block (s := S1x64x1x25) S1x64x1x25.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64x1x25.size a ≤ S1x64x1x25.size a
  hwx0_1 : ∀ i : grid0.Coords, EltTy.bits .f32 = 32 ∨ (Rect.block (s := S1x64x1x25) S1x64x1x25.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64x1x25.size a ≤ S1x64x1x25.size a
  hwx0_2 : ∀ i : grid0.Coords, EltTy.bits .f32 = 32 ∨ (Rect.block (s := S1x64x1x25) S1x64x1x25.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64x1x25.size a ≤ S1x64x1x25.size a
  hwx0_3 : ∀ i : grid0.Coords, EltTy.bits .f32 = 32 ∨ (Rect.block (s := S1x64x1x25) S1x64x1x25.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hstart0_4 : ∀ (i : grid0.Coords) a, cc0_transform_4 i a * S1x8x64x25.size a < S1x9x64x25.size a
  hwx0_4 : ∀ i : grid0.Coords, EltTy.bits .f32 = 32 ∨ (Rect.unit (s := S1x9x64x25) (fun a => cc0_transform_4 i a * S1x8x64x25.size a) (fun a => (Pipeline.Clip.of (cc0_transform_4 i a) (S1x8x64x25.size a) (S1x9x64x25.size a)).extent (S1x8x64x25.size a)) fun a => Pipeline.Clip.inb (Pipeline.Clip.ok_of (hstart0_4 i a))).WholeWords (EltTy.packing .f32)
  hwxs0_4 : ∀ i : grid0.Coords, EltTy.bits .f32 = 32 ∨ (Rect.unit (s := S1x8x64x25) (fun _ => 0) (fun a => (Pipeline.Clip.of (cc0_transform_4 i a) (S1x8x64x25.size a) (S1x9x64x25.size a)).extent (S1x8x64x25.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64x1x25.size a ≤ S1x64x1x25.size a
  hwx0_5 : ∀ i : grid0.Coords, EltTy.bits .f32 = 32 ∨ (Rect.block (s := S1x64x1x25) S1x64x1x25.size (cc0_transform_5 i) (hinb0_5 i)).WholeWords (EltTy.packing .f32)

variable [Facts₀]

abbrev win0_0 : Pipeline.Window sig grid0 :=
  Pipeline.Window.ofSpec (Memref.whole main_arg0) S1x64x1x25.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x1x25.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x1x25.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x64x1x25.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_arg4) S1x8x64x25.size cc0_transform_4 reads0_4 false true 1 stage0_4 sem0_4
    hrank0 hreads0_4 hstart0_4 nbuf0_4 (Memref.isWhole_whole _) hwx0_4 hwxs0_4 hstage0_4

abbrev win0_5 : Pipeline.Window sig grid0 :=
  Pipeline.Window.ofSpec (Memref.whole main_v0) S1x64x1x25.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x64x1x25 : Shape := ⟨4, ![1, 64, 1, 25]⟩
abbrev S1x9x64x25 : Shape := ⟨4, ![1, 9, 64, 25]⟩
abbrev S3x25x25 : Shape := ⟨3, ![3, 25, 25]⟩
abbrev S1x1x64x25 : Shape := ⟨4, ![1, 1, 64, 25]⟩
abbrev S1x8x64x25 : Shape := ⟨4, ![1, 8, 64, 25]⟩
abbrev S_ : Shape := ⟨0, ![]⟩
abbrev S1x64x25 : Shape := ⟨3, ![1, 64, 25]⟩

abbrev nBuf : Space → Nat
  | .hbm => 23
  | .vmem => 0
  | .smem => 0
  | _ => 0

abbrev bufTy : (tb : Table) → Fin (tcTables nBuf tb) → BufTy
  | .hbm, ⟨0, _⟩ => ⟨S1x64x1x25, .f32⟩
  | .hbm, ⟨1, _⟩ => ⟨S1x64x1x25, .f32⟩
  | .hbm, ⟨2, _⟩ => ⟨S1x64x1x25, .f32⟩
  | .hbm, ⟨3, _⟩ => ⟨S1x64x1x25, .f32⟩
  | .hbm, ⟨4, _⟩ => ⟨S1x9x64x25, .f32⟩
  | .hbm, ⟨5, _⟩ => ⟨S3x25x25, .f32⟩
  | .hbm, ⟨6, _⟩ => ⟨S3x25x25, .f32⟩
  | .hbm, ⟨7, _⟩ => ⟨S3x25x25, .f32⟩
  | .hbm, ⟨8, _⟩ => ⟨S1x64x1x25, .f32⟩
  | .hbm, ⟨9, _⟩ => ⟨S1x64x1x25, .f32⟩
  | .hbm, ⟨10, _⟩ => ⟨S1x1x64x25, .f32⟩
  | .hbm, ⟨11, _⟩ => ⟨S1x8x64x25, .f32⟩
  | .hbm, ⟨12, _⟩ => ⟨S1x9x64x25, .f32⟩
  | .hbm, ⟨13, _⟩ => ⟨S_, .f32⟩
  | .hbm, ⟨14, _⟩ => ⟨S1x64x25, .f32⟩
  | .hbm, ⟨15, _⟩ => ⟨S1x64x1x25, .f32⟩
  | .hbm, ⟨16, _⟩ => ⟨S_, .f32⟩
  | .hbm, ⟨17, _⟩ => ⟨S1x64x1x25, .f32⟩
  | .hbm, ⟨18, _⟩ => ⟨S1x64x1x25, .f32⟩
  | .hbm, ⟨19, _⟩ => ⟨S1x64x1x25, .f32⟩
  | .hbm, ⟨20, _⟩ => ⟨S_, .f32⟩
  | .hbm, ⟨21, _⟩ => ⟨S1x64x1x25, .f32⟩
  | .hbm, ⟨22, _⟩ => ⟨S1x64x1x25, .f32⟩
  | _, _ => ⟨S1x64x1x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_call0_cst : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  transposes_S1x64x1x25_S1x1x64x25_0_2_1_3 : S1x64x1x25.Transposes [0, 2, 1, 3] S1x1x64x25
  slices_S1x9x64x25_S1x8x64x25_0_0_0_0 : S1x9x64x25.Slices ![0, 0, 0, 0] S1x8x64x25
  concatenates_S1x1x64x25_S1x8x64x25_S1x9x64x25_d1 : Shape.Concatenates [S1x1x64x25, S1x8x64x25] S1x9x64x25 1
  reducesTo_S1x9x64x25_S1x64x25_d1 : S1x9x64x25.ReducesTo [1] S1x64x25
  h_S_ : 0 < S_.numel
  shapeCasts_S1x64x25_S1x64x1x25 : S1x64x25.ShapeCasts S1x64x1x25
  bcast_S_S1x64x1x25 : S_.BroadcastsInDim S1x64x1x25 (![] : Fin 0 → Fin S1x64x1x25.rank)

variable [Facts₀]

class Facts : Prop extends Facts₀ where

variable [Facts]
-- ==== Proof.WordBody.lean ====
/-
  The frame of the program in namespace `Cert.Kernel`, at any float instance.

  The region has ONE grid point. Five input windows are staged: four whole [1, 64, 1, 25] arrays, and slots 0‥7 of
  the nine-slot [1, 9, 64, 25] array as one [1, 8, 64, 25] block. That block starts at slot 0 and ends at slot 8,
  inside the array, so on every axis the transfer is uncut and the staging buffer holds exactly the block, whatever it
  held before (`clip_slots`, `before_slots`). The body loads the five buffers whole, loads the result's buffer (a value
  nothing reads), and stores ONE whole block: the payload `k0_pay1` of the five loaded blocks. So after the body the
  result's buffer holds that payload of the five input blocks (`stored`), the inputs' buffers what they held.
-/
import proofs.«161999_j70557722739217_2_alg».proof.Proof.Gen.Kernel.Frame
import proofs.«161999_j70557722739217_2_alg».proof.Proof.Gen.Kernel.Skeleton
import Idealize.ShloMosaic.Lib.Pipeline.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through: each buffer whole -/

abbrev rRow : Rect S1x64x1x25 := Rect.unit (s := S1x64x1x25) ![0, 0, 0, 0] S1x64x1x25.size inb_S1x64x1x25_S1x64x1x25_0_0_0_0
abbrev rSlots : Rect S1x8x64x25 := Rect.unit (s := S1x8x64x25) ![0, 0, 0, 0] S1x8x64x25.size inb_S1x8x64x25_S1x8x64x25_0_0_0_0

/-! ## What the result's buffer holds after the body -/

/-- The one store, as a piece: the payload of the five loaded blocks, through the whole-buffer rectangle. -/
def stored (x0 x1 x2 x3 : Vec F S1x64x1x25 .f32) (x4 : Vec F S1x8x64x25 .f32) : Vec F S1x64x1x25 .f32 :=
  View.canon [⟨rRow, k0_pay1 (View.ld x0 rRow) (View.ld x1 rRow) (View.ld x2 rRow) (View.ld x3 rRow) (View.ld x4 rSlots)⟩]

/-- The one store covers the buffer. -/
theorem cover_row (p0 : Vec F S1x64x1x25 .f32) (y : S1x64x1x25.Idx) :
    ∃ pc ∈ ([⟨rRow, p0⟩] : List (View.Piece (Elt F) S1x64x1x25 .f32)), y ∈ pc.1.set :=
  View.cover_of_tiled [⟨rRow, p0⟩] S1x64x1x25.size (by rfl) y

/-! ## The body's triple -/

set_option maxHeartbeats 1000000 in
/-- On whole staging memrefs — the five inputs' at read contents `x0 … x4`, the result's at anything — the body runs to
    the continuation holding the inputs' as they were and the result's at `stored x0 x1 x2 x3 x4`. -/
theorem sound_kernel (c : Dev nD) (E : Set ℕ) (i : grid0.Coords)
    (arg1 : Memref sig .tc .vmem S1x64x1x25 .f32) (harg1 : arg1.IsWhole) (arg2 : Memref sig .tc .vmem S1x64x1x25 .f32) (harg2 : arg2.IsWhole)
    (arg3 : Memref sig .tc .vmem S1x64x1x25 .f32) (harg3 : arg3.IsWhole) (arg4 : Memref sig .tc .vmem S1x64x1x25 .f32) (harg4 : arg4.IsWhole)
    (arg5 : Memref sig .tc .vmem S1x8x64x25 .f32) (harg5 : arg5.IsWhole) (arg6 : Memref sig .tc .vmem S1x64x1x25 .f32) (harg6 : arg6.IsWhole)
    (x0 x1 x2 x3 : Vec F S1x64x1x25 .f32) (x4 : Vec F S1x8x64x25 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E
          (cc0__fifo_layer_kernel i arg1 harg1 arg2 harg2 arg3 harg3 arg4 harg4 arg5 harg5 arg6 harg6) K := by
  simp only [cc0__fifo_layer_kernel_eq_skeleton]; unfold cc0__fifo_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_row _)

/-! ## The slots window is uncut -/

/-- On every axis the slots block ends inside the array (1 ≤ 1, 8 ≤ 9, 64 ≤ 64, 25 ≤ 25): no transfer of it is cut. -/
theorem clip_slots (i : grid0.Coords) (a : Fin 4) : (cfg0.win 4).clip i a = none := by
  match a with
  | ⟨0, _⟩ => rfl
  | ⟨1, _⟩ => rfl
  | ⟨2, _⟩ => rfl
  | ⟨3, _⟩ => rfl

/-- The slots window's staging buffer once its block has landed: the block, over a filler that no index keeps. -/
def slotsBuf (c : Dev nD) (t : Fin cfg0.N) : Vec F S1x8x64x25 .f32 :=
  (cfg0.win 4).fill (cfg0.grid.coords t) (fun _ => Scalar.ofBits .f32 0#32) (iblk m c 4 t)

/-! ## The pipeline's proof data -/

/-- The arrays as the region finds them; after the body each input's buffer at its block and the result's at
    `stored` of the five; the invariant the frame's (the scoped rest and the generator register, untouched);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => slotsBuf m c t
    | ⟨5, _⟩ => stored (iblk m c 0 t) (iblk m c 1 t) (iblk m c 2 t) (iblk m c 3 t) (slotsBuf m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = slotsBuf m c t := by dsimp only [dats]
theorem after5 (c : Dev nD) (t : Fin cfg0.N) : (dats m 0 c).after 5 t
    = stored (iblk m c 0 t) (iblk m c 1 t) (iblk m c 2 t) (iblk m c 3 t) (slotsBuf m c t) := by dsimp only [dats]

/-- Each whole-array input's buffer holds its block when the body runs. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The slots window is fetched at the point, and the fetch, being uncut, leaves nothing of what the buffer held. -/
theorem before_slots (c : Dev nD) (t : Fin cfg0.N) (d) : (dats m 0 c).before 4 t d = slotsBuf m c t := by
  unfold Dat.before
  rw [if_pos (fetch0_4 t)]
  exact Pipeline.fill_of_clip_none (cfg := cfg0) 4 (cfg0.grid.coords t) (clip_slots _) d _ _

/-- The only point is the first: the result's buffer holds anything. -/
theorem before_result (c : Dev nD) (t : Fin cfg0.N) (d) : (dats m 0 c).before 5 t d = d :=
  (dats m 0 c).before_out_reset 5 rfl t (Or.inl (by have h : t.val < grid0.N := t.isLt; rw [N_0] at h; omega)) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns: every buffer at what the proof data names; the slots window's, whose blocks could overhang
    at another index, stated on the part its transfers move (here: all of it). -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t))))
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before_slots, before_result]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (slotsBuf m c t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists (slotsBuf m c t)
    rw [Window.fill_cut]
    iexact H4
  iexact H5

/-- The library's body obligation, at the point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each array of the pipeline ending at what the library computes
    from the proof data, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.IdealBody.lean ====
/-
  The frame of the program in namespace `Cert.KernelIdeal`, at any float instance.

  The region has ONE grid point. Five input windows are staged: four whole [1, 64, 1, 25] arrays, and slots 0‥7 of
  the nine-slot [1, 9, 64, 25] array as one [1, 8, 64, 25] block. That block starts at slot 0 and ends at slot 8,
  inside the array, so on every axis the transfer is uncut and the staging buffer holds exactly the block, whatever it
  held before (`clip_slots`, `before_slots`). The body loads the five buffers whole, loads the result's buffer (a value
  nothing reads), and stores ONE whole block: the payload `k0_pay1` of the five loaded blocks. So after the body the
  result's buffer holds that payload of the five input blocks (`stored`), the inputs' buffers what they held.
-/
import proofs.«161999_j70557722739217_2_alg».proof.Proof.Gen.KernelIdeal.Frame
import proofs.«161999_j70557722739217_2_alg».proof.Proof.Gen.KernelIdeal.Skeleton
import Idealize.ShloMosaic.Lib.Pipeline.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the body reads and writes through: each buffer whole -/

abbrev rRow : Rect S1x64x1x25 := Rect.unit (s := S1x64x1x25) ![0, 0, 0, 0] S1x64x1x25.size inb_S1x64x1x25_S1x64x1x25_0_0_0_0
abbrev rSlots : Rect S1x8x64x25 := Rect.unit (s := S1x8x64x25) ![0, 0, 0, 0] S1x8x64x25.size inb_S1x8x64x25_S1x8x64x25_0_0_0_0

/-! ## What the result's buffer holds after the body -/

/-- The one store, as a piece: the payload of the five loaded blocks, through the whole-buffer rectangle. -/
def stored (x0 x1 x2 x3 : Vec F S1x64x1x25 .f32) (x4 : Vec F S1x8x64x25 .f32) : Vec F S1x64x1x25 .f32 :=
  View.canon [⟨rRow, k0_pay1 (View.ld x0 rRow) (View.ld x1 rRow) (View.ld x2 rRow) (View.ld x3 rRow) (View.ld x4 rSlots)⟩]

/-- The one store covers the buffer. -/
theorem cover_row (p0 : Vec F S1x64x1x25 .f32) (y : S1x64x1x25.Idx) :
    ∃ pc ∈ ([⟨rRow, p0⟩] : List (View.Piece (Elt F) S1x64x1x25 .f32)), y ∈ pc.1.set :=
  View.cover_of_tiled [⟨rRow, p0⟩] S1x64x1x25.size (by rfl) y

/-! ## The body's triple -/

set_option maxHeartbeats 1000000 in
/-- On whole staging memrefs — the five inputs' at read contents `x0 … x4`, the result's at anything — the body runs to
    the continuation holding the inputs' as they were and the result's at `stored x0 x1 x2 x3 x4`. -/
theorem sound_kernel (c : Dev nD) (E : Set ℕ) (i : grid0.Coords)
    (arg1 : Memref sig .tc .vmem S1x64x1x25 .f32) (harg1 : arg1.IsWhole) (arg2 : Memref sig .tc .vmem S1x64x1x25 .f32) (harg2 : arg2.IsWhole)
    (arg3 : Memref sig .tc .vmem S1x64x1x25 .f32) (harg3 : arg3.IsWhole) (arg4 : Memref sig .tc .vmem S1x64x1x25 .f32) (harg4 : arg4.IsWhole)
    (arg5 : Memref sig .tc .vmem S1x8x64x25 .f32) (harg5 : arg5.IsWhole) (arg6 : Memref sig .tc .vmem S1x64x1x25 .f32) (harg6 : arg6.IsWhole)
    (x0 x1 x2 x3 : Vec F S1x64x1x25 .f32) (x4 : Vec F S1x8x64x25 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E
          (cc0__fifo_layer_kernel i arg1 harg1 arg2 harg2 arg3 harg3 arg4 harg4 arg5 harg5 arg6 harg6) K := by
  simp only [cc0__fifo_layer_kernel_eq_skeleton]; unfold cc0__fifo_layer_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_row _)

/-! ## The slots window is uncut -/

/-- On every axis the slots block ends inside the array (1 ≤ 1, 8 ≤ 9, 64 ≤ 64, 25 ≤ 25): no transfer of it is cut. -/
theorem clip_slots (i : grid0.Coords) (a : Fin 4) : (cfg0.win 4).clip i a = none := by
  match a with
  | ⟨0, _⟩ => rfl
  | ⟨1, _⟩ => rfl
  | ⟨2, _⟩ => rfl
  | ⟨3, _⟩ => rfl

/-- The slots window's staging buffer once its block has landed: the block, over a filler that no index keeps. -/
def slotsBuf (c : Dev nD) (t : Fin cfg0.N) : Vec F S1x8x64x25 .f32 :=
  (cfg0.win 4).fill (cfg0.grid.coords t) (fun _ => Scalar.ofBits .f32 0#32) (iblk m c 4 t)

/-! ## The pipeline's proof data -/

/-- The arrays as the region finds them; after the body each input's buffer at its block and the result's at
    `stored` of the five; the invariant the frame's (the scoped rest and the generator register, untouched);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => slotsBuf m c t
    | ⟨5, _⟩ => stored (iblk m c 0 t) (iblk m c 1 t) (iblk m c 2 t) (iblk m c 3 t) (slotsBuf m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = slotsBuf m c t := by dsimp only [dats]
theorem after5 (c : Dev nD) (t : Fin cfg0.N) : (dats m 0 c).after 5 t
    = stored (iblk m c 0 t) (iblk m c 1 t) (iblk m c 2 t) (iblk m c 3 t) (slotsBuf m c t) := by dsimp only [dats]

/-- Each whole-array input's buffer holds its block when the body runs. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The slots window is fetched at the point, and the fetch, being uncut, leaves nothing of what the buffer held. -/
theorem before_slots (c : Dev nD) (t : Fin cfg0.N) (d) : (dats m 0 c).before 4 t d = slotsBuf m c t := by
  unfold Dat.before
  rw [if_pos (fetch0_4 t)]
  exact Pipeline.fill_of_clip_none (cfg := cfg0) 4 (cfg0.grid.coords t) (clip_slots _) d _ _

/-- The only point is the first: the result's buffer holds anything. -/
theorem before_result (c : Dev nD) (t : Fin cfg0.N) (d) : (dats m 0 c).before 5 t d = d :=
  (dats m 0 c).before_out_reset 5 rfl t (Or.inl (by have h : t.val < grid0.N := t.isLt; rw [N_0] at h; omega)) d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns: every buffer at what the proof data names; the slots window's, whose blocks could overhang
    at another index, stated on the part its transfers move (here: all of it). -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t))))
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before_slots, before_result]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (slotsBuf m c t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]
  · iexists (slotsBuf m c t)
    rw [Window.fill_cut]
    iexact H4
  iexact H5

/-- The library's body obligation, at the point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each array of the pipeline ending at what the library computes
    from the proof data, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.SlotSum.lean ====
/-
  The function both programs compute, over the extended reals.

  At channel `c` and joint `v` the layer adds the three partition branches, adds to that the eight OLD frames kept in
  slots 0‥7 of the nine-slot buffer (slot 8 is dropped), clamps at zero, adds the residual input and clamps at zero again:

      out[0, c, 0, v] = max (max ((x1 + x2 + x3)[0, c, 0, v] + ∑ s < 8, q[0, s, c, v]) 0 + r[0, c, 0, v]) 0.

  One program sums the eight old frames and adds the new frame beside them; the other pushes the new frame in front of
  the eight (nine slots) and sums all nine from zero. The two agree because a sum over nine terms is its first term
  plus the sum of the other eight (`nine_terms`), and addition of extended reals is associative and has `0` as unit —
  laws that hold at the infinities too, so nothing is asked of the inputs.
-/
import Idealize.ShloMosaic.PureOps.Ideal
import Idealize.ShloMosaic.Lib.ValueIdx

noncomputable section

namespace Cert.SlotSum

open Idealize.ShloMosaic

/-- Slot `s` of the nine-slot buffer at the channel and joint of the row index `i`. -/
abbrev slotAt (i : (⟨4, ![1, 64, 1, 25]⟩ : Shape).Idx) (s : Fin 9) : (⟨4, ![1, 9, 64, 25]⟩ : Shape).Idx := fun a => match a with
  | ⟨0, _⟩ => ⟨0, Nat.one_pos⟩
  | ⟨1, _⟩ => ⟨s.val, s.isLt⟩
  | ⟨2, _⟩ => ⟨(i 1).val, (i 1).isLt⟩
  | ⟨3, _⟩ => ⟨(i 3).val, (i 3).isLt⟩

/-- The layer's output, index by index: `r` the residual input, `a b d` the three partition branches, `q` the
    nine-slot buffer of which slots 0‥7 are read. -/
def layer (r a b d : (⟨4, ![1, 64, 1, 25]⟩ : Shape).Idx → EReal) (q : (⟨4, ![1, 9, 64, 25]⟩ : Shape).Idx → EReal) :
    (⟨4, ![1, 64, 1, 25]⟩ : Shape).Idx → EReal := fun i =>
  max (max ((a i + b i + d i) + ∑ s : Fin 8, q (slotAt i s.castSucc)) 0 + r i) 0

/-- A sum of nine terms started from zero is the first term plus the sum of the other eight. -/
theorem nine_terms (f : Fin 9 → EReal) : 0 + ∑ k : Fin 9, f k = f 0 + ∑ s : Fin 8, f s.succ := by
  rw [zero_add, Fin.sum_univ_succ]

end Cert.SlotSum

end
-- ==== Proof.OutLayer.lean ====
/-
  The idealized kernel's result array is `SlotSum.layer` of its argument arrays.

  The one grid point stores ONE block, the whole [1, 64, 1, 25] result. Its payload, read at channel `c` and joint `v`
  (`payload_at`): the three branch blocks are flattened to [64, 25], added, the slots block [1, 8, 64, 25] is flattened to
  [8, 64, 25] and summed over its slot axis (`slots_sum`: at the ideal values a sum over the eight slot coordinates),
  the two are added, clamped at zero, the residual block is added, clamped again, and the plane is cast back to
  [1, 64, 1, 25]. Every input block sits at block index 0 of its array, so a block's index IS the array's index
  (`row_block`, `slots_block`), and the one block covers the result array.
-/
import proofs.«161999_j70557722739217_2_alg».proof.Proof.IdealBody
import proofs.«161999_j70557722739217_2_alg».proof.Proof.SlotSum
import Idealize.ShloMosaic.Lib.Pipeline.Value
import Idealize.ShloMosaic.Lib.ValueIdx
import Idealize.ShloMosaic.PureOps.Ideal.Laws

set_option maxRecDepth 16384

noncomputable section

namespace Cert.KernelIdeal.OutLayer

open Cert.KernelIdeal Cert.KernelIdeal.Gen Cert.KernelIdeal.Body Cert.SlotSum
open Idealize.ShloMosaic Idealize.ShloMosaic.TcCoe Idealize.SL.Sem Idealize.ShloMosaic.ValueIdx
open Idealize.ShloMosaic.Pipeline (Dat)

/-! ## The payload at an index -/

/-- A [1, 64, 1, 25] block flattened to [64, 25], at (c, v). -/
theorem row_to_plane (x : Vec Ideal S1x64x1x25 .f32) (h : S1x64x1x25.ShapeCasts S64x25) (c : Fin 64) (v : Fin 25) :
    shapeCast S64x25 x h (ix2 c v) = x (ix4 (0 : Fin 1) c (0 : Fin 1) v) :=
  shapeCast_apply x h (ix2 c v) (ix4 (0 : Fin 1) c (0 : Fin 1) v) (by
    rewrite [Shape.rowMajor_val_four, Shape.rowMajor_val_two]
    show ((0 * 64 + c.val) * 1 + 0) * 25 + v.val = c.val * 25 + v.val
    omega)

/-- A [64, 25] plane cast back to [1, 64, 1, 25], at (a, c, b, v). -/
theorem plane_to_row (y : FVec Ideal S64x25 .f32) (h : S64x25.ShapeCasts S1x64x1x25) (a : Fin 1) (c : Fin 64) (b : Fin 1) (v : Fin 25) :
    shapeCast S1x64x1x25 y h (ix4 a c b v) = y (ix2 c v) :=
  shapeCast_apply y h (ix4 a c b v) (ix2 c v) (by
    rewrite [Shape.rowMajor_val_four, Shape.rowMajor_val_two]
    have ha : a.val < 1 := a.isLt
    have hb : b.val < 1 := b.isLt
    show c.val * 25 + v.val = ((a.val * 64 + c.val) * 1 + b.val) * 25 + v.val
    omega)

/-- The slots block flattened to [8, 64, 25] and summed over the slot axis, at (c, v): the sum over the eight slots. -/
theorem slots_sum (x : Vec Ideal S1x8x64x25 .f32) (h : S1x8x64x25.ShapeCasts S8x64x25) (hr : S8x64x25.Reduces [0] S64x25)
    (hφ : FKind.Formats .f32) (hacc : (0x00000000#32 : BitVec 32) = 0x00000000#32) (c : Fin 64) (v : Fin 25) :
    multiReduction (F := Ideal) .add [0] S64x25 (shapeCast S8x64x25 x h) 0x00000000#32 hr hφ hacc (ix2 c v)
      = ∑ s : Fin 8, x (ix4 (0 : Fin 1) s c v) := by
  refine (Ideal.multiReduction_add_single (shapeCast S8x64x25 x h) 0x00000000#32 hr hφ hacc (ix2 c v)).trans ?_
  refine Finset.sum_congr rfl fun s _ => ?_
  refine shapeCast_apply x h _ (ix4 (0 : Fin 1) s c v) ?_
  rewrite [Shape.rowMajor_val_four, Shape.rowMajor_val_three]
  show ((0 * 8 + s.val) * 64 + c.val) * 25 + v.val = (s.val * 64 + c.val) * 25 + v.val
  omega

/-- The stored payload at (a, c, b, v), over the extended reals. -/
theorem payload_at (v0 v2 v4 v6 : Vec Ideal S1x64x1x25 .f32) (v8 : Vec Ideal S1x8x64x25 .f32)
    (a : Fin 1) (c : Fin 64) (b : Fin 1) (v : Fin 25) :
    k0_pay1 (F := Ideal) v0 v2 v4 v6 v8 (ix4 a c b v)
      = max (max ((v2 (ix4 (0 : Fin 1) c (0 : Fin 1) v) + v4 (ix4 (0 : Fin 1) c (0 : Fin 1) v) + v6 (ix4 (0 : Fin 1) c (0 : Fin 1) v))
          + ∑ s : Fin 8, v8 (ix4 (0 : Fin 1) s c v)) 0 + v0 (ix4 (0 : Fin 1) c (0 : Fin 1) v)) 0 := by
  unfold k0_pay1
  refine (plane_to_row _ _ a c b v).trans ?_
  show max (max ((shapeCast S64x25 v2 _ (ix2 c v) + shapeCast S64x25 v4 _ (ix2 c v) + shapeCast S64x25 v6 _ (ix2 c v))
      + multiReduction (F := Ideal) .add [0] S64x25 (shapeCast S8x64x25 v8 _) 0x00000000#32 _ _ _ (ix2 c v)) (Ideal.ofBits .f32 0x00000000#32)
      + shapeCast S64x25 v0 _ (ix2 c v)) (Ideal.ofBits .f32 0x00000000#32) = _
  rw [row_to_plane, row_to_plane, row_to_plane, row_to_plane, slots_sum, Ideal.ofBits_zero_f32]

/-! ## The blocks are the arrays -/

variable (m : (ℓ : Loc nD τ sig) → Buf (Elt Ideal) ℓ) (ρ : Dev nD → PrngReg)

theorem hz4 : (![0, 0, 0, 0] : Fin 4 → Nat) = fun _ => 0 := funext fun a => by fin_cases a <;> rfl

/-- A whole-array input's block at the point, read at an index, is the array there. -/
theorem row_block0 (c : Dev nD) (t : Fin cfg0.N) (y : S1x64x1x25.Idx) : iblk m c 0 t y = V m c main_arg0 y := by
  show V m c main_arg0 (((cfg0.win 0).blk t).view.emb y) = V m c main_arg0 y
  refine congrArg _ (funext fun a => Fin.ext ?_)
  match a with
  | ⟨0, _⟩ => show win0_0.index t (0 : Fin 4) * 1 + 1 * (y 0).val = (y 0).val; rw [show win0_0.index t (0 : Fin 4) = 0 from rfl]; omega
  | ⟨1, _⟩ => show win0_0.index t (1 : Fin 4) * 64 + 1 * (y 1).val = (y 1).val; rw [show win0_0.index t (1 : Fin 4) = 0 from rfl]; omega
  | ⟨2, _⟩ => show win0_0.index t (2 : Fin 4) * 1 + 1 * (y 2).val = (y 2).val; rw [show win0_0.index t (2 : Fin 4) = 0 from rfl]; omega
  | ⟨3, _⟩ => show win0_0.index t (3 : Fin 4) * 25 + 1 * (y 3).val = (y 3).val; rw [show win0_0.index t (3 : Fin 4) = 0 from rfl]; omega
theorem row_block1 (c : Dev nD) (t : Fin cfg0.N) (y : S1x64x1x25.Idx) : iblk m c 1 t y = V m c main_arg1 y := by
  show V m c main_arg1 (((cfg0.win 1).blk t).view.emb y) = V m c main_arg1 y
  refine congrArg _ (funext fun a => Fin.ext ?_)
  match a with
  | ⟨0, _⟩ => show win0_1.index t (0 : Fin 4) * 1 + 1 * (y 0).val = (y 0).val; rw [show win0_1.index t (0 : Fin 4) = 0 from rfl]; omega
  | ⟨1, _⟩ => show win0_1.index t (1 : Fin 4) * 64 + 1 * (y 1).val = (y 1).val; rw [show win0_1.index t (1 : Fin 4) = 0 from rfl]; omega
  | ⟨2, _⟩ => show win0_1.index t (2 : Fin 4) * 1 + 1 * (y 2).val = (y 2).val; rw [show win0_1.index t (2 : Fin 4) = 0 from rfl]; omega
  | ⟨3, _⟩ => show win0_1.index t (3 : Fin 4) * 25 + 1 * (y 3).val = (y 3).val; rw [show win0_1.index t (3 : Fin 4) = 0 from rfl]; omega
theorem row_block2 (c : Dev nD) (t : Fin cfg0.N) (y : S1x64x1x25.Idx) : iblk m c 2 t y = V m c main_arg2 y := by
  show V m c main_arg2 (((cfg0.win 2).blk t).view.emb y) = V m c main_arg2 y
  refine congrArg _ (funext fun a => Fin.ext ?_)
  match a with
  | ⟨0, _⟩ => show win0_2.index t (0 : Fin 4) * 1 + 1 * (y 0).val = (y 0).val; rw [show win0_2.index t (0 : Fin 4) = 0 from rfl]; omega
  | ⟨1, _⟩ => show win0_2.index t (1 : Fin 4) * 64 + 1 * (y 1).val = (y 1).val; rw [show win0_2.index t (1 : Fin 4) = 0 from rfl]; omega
  | ⟨2, _⟩ => show win0_2.index t (2 : Fin 4) * 1 + 1 * (y 2).val = (y 2).val; rw [show win0_2.index t (2 : Fin 4) = 0 from rfl]; omega
  | ⟨3, _⟩ => show win0_2.index t (3 : Fin 4) * 25 + 1 * (y 3).val = (y 3).val; rw [show win0_2.index t (3 : Fin 4) = 0 from rfl]; omega
theorem row_block3 (c : Dev nD) (t : Fin cfg0.N) (y : S1x64x1x25.Idx) : iblk m c 3 t y = V m c main_arg3 y := by
  show V m c main_arg3 (((cfg0.win 3).blk t).view.emb y) = V m c main_arg3 y
  refine congrArg _ (funext fun a => Fin.ext ?_)
  match a with
  | ⟨0, _⟩ => show win0_3.index t (0 : Fin 4) * 1 + 1 * (y 0).val = (y 0).val; rw [show win0_3.index t (0 : Fin 4) = 0 from rfl]; omega
  | ⟨1, _⟩ => show win0_3.index t (1 : Fin 4) * 64 + 1 * (y 1).val = (y 1).val; rw [show win0_3.index t (1 : Fin 4) = 0 from rfl]; omega
  | ⟨2, _⟩ => show win0_3.index t (2 : Fin 4) * 1 + 1 * (y 2).val = (y 2).val; rw [show win0_3.index t (2 : Fin 4) = 0 from rfl]; omega
  | ⟨3, _⟩ => show win0_3.index t (3 : Fin 4) * 25 + 1 * (y 3).val = (y 3).val; rw [show win0_3.index t (3 : Fin 4) = 0 from rfl]; omega

/-- Slot `s < 8` of the slots block is slot `s` of the nine-slot array, at the same channel and joint. -/
theorem slots_block (c : Dev nD) (t : Fin cfg0.N) (s : Fin 8) (ch : Fin 64) (v : Fin 25) (i : S1x64x1x25.Idx)
    (h1 : (i 1).val = ch.val) (h3 : (i 3).val = v.val) :
    slotsBuf m c t (ix4 (0 : Fin 1) s ch v) = V m c main_arg4 (slotAt i s.castSucc) := by
  have hm : (cfg0.win 4).moved (cfg0.grid.coords t) (ix4 (0 : Fin 1) s ch v) = true :=
    ((cfg0.win 4).moved_iff _ _).mpr fun a => by
      have := ((ix4 (0 : Fin 1) s ch v : S1x8x64x25.Idx) a).isLt
      unfold Pipeline.Window.xsize; rw [clip_slots]; exact this
  unfold slotsBuf Pipeline.Window.fill
  rw [dif_pos hm]
  show V m c main_arg4 (((cfg0.win 4).blk t).view.emb _) = V m c main_arg4 (slotAt i s.castSucc)
  refine congrArg _ (funext fun a => Fin.ext ?_)
  match a with
  | ⟨0, _⟩ => show win0_4.index t (0 : Fin 4) * 1 + 1 * 0 = 0; rw [show win0_4.index t (0 : Fin 4) = 0 from rfl]
  | ⟨1, _⟩ => show win0_4.index t (1 : Fin 4) * 8 + 1 * s.val = s.val; rw [show win0_4.index t (1 : Fin 4) = 0 from rfl]; omega
  | ⟨2, _⟩ => show win0_4.index t (2 : Fin 4) * 64 + 1 * ch.val = (i 1).val; rw [show win0_4.index t (2 : Fin 4) = 0 from rfl]; omega
  | ⟨3, _⟩ => show win0_4.index t (3 : Fin 4) * 25 + 1 * v.val = (i 3).val; rw [show win0_4.index t (3 : Fin 4) = 0 from rfl]; omega

/-! ## The one block is a block of `layer`, and covers the array -/

/-- `layer` of the argument arrays as the region finds them. -/
abbrev L (c : Dev nD) : S1x64x1x25.Idx → EReal :=
  layer (V m c main_arg0) (V m c main_arg1) (V m c main_arg2) (V m c main_arg3) (V m c main_arg4)

/-- What the point writes back is its block of `layer`. -/
theorem flushed_eq (c : Dev nD) (t : Fin cfg0.N) :
    (dats m 0 c).flushed 5 t = ((cfg0.win 5).blk t).view.read (Elt Ideal) (L m c) := by
  show (cfg0.win 5).cut (grid0.coords t) ((dats m 0 c).after 5 t) = _
  rw [after5]
  unfold stored
  rw [View.canon_unit_zero hz4]
  simp only [View.ld_unit_zero (S := S1x64x1x25) hz4, View.ld_unit_zero (S := S1x8x64x25) hz4]
  funext j
  obtain ⟨a, ch, b, v, rfl⟩ : ∃ (a : Fin 1) (ch : Fin 64) (b : Fin 1) (v : Fin 25), j = ix4 a ch b v := ⟨j 0, j 1, j 2, j 3, eq_ix4 j⟩
  show k0_pay1 (F := Ideal) (iblk m c 0 t) (iblk m c 1 t) (iblk m c 2 t) (iblk m c 3 t) (slotsBuf m c t) (ix4 a ch b v)
    = L m c (((cfg0.win 5).blk t).view.emb (ix4 a ch b v))
  have he : ((cfg0.win 5).blk t).view.emb (ix4 a ch b v) = ix4 (0 : Fin 1) ch (0 : Fin 1) v := by
    have ha : a.val < 1 := a.isLt
    have hb : b.val < 1 := b.isLt
    funext d; apply Fin.ext
    match d with
    | ⟨0, _⟩ => show win0_5.index t (0 : Fin 4) * 1 + 1 * a.val = 0; rw [show win0_5.index t (0 : Fin 4) = 0 from rfl]; omega
    | ⟨1, _⟩ => show win0_5.index t (1 : Fin 4) * 64 + 1 * ch.val = ch.val; rw [show win0_5.index t (1 : Fin 4) = 0 from rfl]; omega
    | ⟨2, _⟩ => show win0_5.index t (2 : Fin 4) * 1 + 1 * b.val = 0; rw [show win0_5.index t (2 : Fin 4) = 0 from rfl]; omega
    | ⟨3, _⟩ => show win0_5.index t (3 : Fin 4) * 25 + 1 * v.val = v.val; rw [show win0_5.index t (3 : Fin 4) = 0 from rfl]; omega
  rw [he, payload_at, row_block0, row_block1, row_block2, row_block3]
  unfold L layer
  refine congrArg (fun z => max (max (_ + z) 0 + _) 0) (Finset.sum_congr rfl fun s _ => ?_)
  exact slots_block m c t s ch v (ix4 (0 : Fin 1) ch (0 : Fin 1) v) rfl rfl

/-- Every index of the result array is in the one point's block. -/
theorem covered (i : S1x64x1x25.Idx) : ∃ t : Fin cfg0.N, (cfg0.win 5).flush t = true ∧ i ∈ ((cfg0.win 5).blk t).view.set := by
  refine ⟨t0_0, flush0_5 t0_0, ?_⟩
  show i ∈ ((View.whole main_v0).slice (win0_5.rect t0_0)).set
  rw [View.set_slice_whole, Rect.mem_set_unit]
  intro a
  match a with
  | ⟨0, _⟩ => show win0_5.index t0_0 (0 : Fin 4) * 1 ≤ (i 0).val ∧ (i 0).val < win0_5.index t0_0 (0 : Fin 4) * 1 + 1; rw [show win0_5.index t0_0 (0 : Fin 4) = 0 from rfl]; have h0 : (i 0).val < 1 := (i 0).isLt; omega
  | ⟨1, _⟩ => show win0_5.index t0_0 (1 : Fin 4) * 64 ≤ (i 1).val ∧ (i 1).val < win0_5.index t0_0 (1 : Fin 4) * 64 + 64; rw [show win0_5.index t0_0 (1 : Fin 4) = 0 from rfl]; have h1 : (i 1).val < 64 := (i 1).isLt; omega
  | ⟨2, _⟩ => show win0_5.index t0_0 (2 : Fin 4) * 1 ≤ (i 2).val ∧ (i 2).val < win0_5.index t0_0 (2 : Fin 4) * 1 + 1; rw [show win0_5.index t0_0 (2 : Fin 4) = 0 from rfl]; have h2 : (i 2).val < 1 := (i 2).isLt; omega
  | ⟨3, _⟩ => show win0_5.index t0_0 (3 : Fin 4) * 25 ≤ (i 3).val ∧ (i 3).val < win0_5.index t0_0 (3 : Fin 4) * 25 + 25; rw [show win0_5.index t0_0 (3 : Fin 4) = 0 from rfl]; have h3 : (i 3).val < 25 := (i 3).isLt; omega

/-- The result array after the run: `layer` of the argument arrays. -/
theorem final_result (c : Dev nD) : (dats m 0 c).arrAt 5 cfg0.N
    = layer (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) covered

/-! ## The run, read -/

/-- Every weakly fair execution terminates with the result array at `layer` of the arguments, the arguments unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 5).trans (final_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.OutLayer

end
-- ==== Proof.RefLayer.lean ====
/-
  The reference's result is `SlotSum.layer` of its arguments.

  The reference transposes the branch sum to [1, 1, 64, 25], joins it in front of slots 0‥7 of the buffer along the
  slot axis (nine slots), sums the nine from zero, reshapes to [1, 64, 1, 25], clamps, adds the residual, clamps. Read
  at a row index: joined slot 0 is the branch sum at the same channel and joint (`joined_head`), joined slot `s + 1` is
  old slot `s` (`joined_tail`); the rest is one operation at a time.
-/
import proofs.«161999_j70557722739217_2_alg».proof.Proof.Gen.ReferenceIdeal.Read
import proofs.«161999_j70557722739217_2_alg».proof.Proof.SlotSum
import Idealize.ShloMosaic.Lib.Pipeline.Value
import Idealize.ShloMosaic.PureOps.Ideal.Laws

noncomputable section

namespace Cert.ReferenceIdeal.RefLayer

open Cert.ReferenceIdeal Cert.ReferenceIdeal.Gen Cert.ReferenceIdeal.Read Cert.SlotSum
open Idealize.ShloMosaic

/-- The joined buffer's index at slot 0 names this index of the transposed branch sum, -/
abbrev headIdx (j : S1x64x25.Idx) : S1x1x64x25.Idx := fun a => match a with
  | ⟨0, _⟩ => ⟨(j 0).val, (j 0).isLt⟩
  | ⟨1, _⟩ => ⟨0, Nat.one_pos⟩
  | ⟨2, _⟩ => ⟨(j 1).val, (j 1).isLt⟩
  | ⟨3, _⟩ => ⟨(j 2).val, (j 2).isLt⟩

/-- and at slot `s + 1` this index of the eight kept slots. -/
abbrev tailIdx (j : S1x64x25.Idx) (s : Fin 8) : S1x8x64x25.Idx := fun a => match a with
  | ⟨0, _⟩ => ⟨(j 0).val, (j 0).isLt⟩
  | ⟨1, _⟩ => ⟨s.val, s.isLt⟩
  | ⟨2, _⟩ => ⟨(j 1).val, (j 1).isLt⟩
  | ⟨3, _⟩ => ⟨(j 2).val, (j 2).isLt⟩

/-- Joined slot 0 is the new frame. -/
theorem joined_head (x1 x2 x3 : (⟨S1x64x1x25, .f32⟩ : BufTy).Contents (Elt Ideal)) (x4 : (⟨S1x9x64x25, .f32⟩ : BufTy).Contents (Elt Ideal))
    (j : S1x64x25.Idx) :
    val_main_v4 (F := Ideal) x1 x2 x3 x4 (idx_main_v5 j 0) = val_main_v2 (F := Ideal) x1 x2 x3 (headIdx j) := by
  unfold val_main_v4
  exact concatenate_pair_apply_left (t := S1x9x64x25) (s₁ := S1x1x64x25) (s₂ := S1x8x64x25) (1 : Fin 4) _ _ concatenates_S1x1x64x25_S1x8x64x25_S1x9x64x25_d1 (idx_main_v5 j 0) rfl (headIdx j)
    (fun b => match b with
      | ⟨0, _⟩ => rfl
      | ⟨1, _⟩ => rfl
      | ⟨2, _⟩ => rfl
      | ⟨3, _⟩ => rfl)

/-- Joined slot `s + 1` is old slot `s`. -/
theorem joined_tail (x1 x2 x3 : (⟨S1x64x1x25, .f32⟩ : BufTy).Contents (Elt Ideal)) (x4 : (⟨S1x9x64x25, .f32⟩ : BufTy).Contents (Elt Ideal))
    (j : S1x64x25.Idx) (s : Fin 8) :
    val_main_v4 (F := Ideal) x1 x2 x3 x4 (idx_main_v5 j s.succ) = val_main_v3 (F := Ideal) x4 (tailIdx j s) := by
  unfold val_main_v4
  exact concatenate_pair_apply_right (t := S1x9x64x25) (s₁ := S1x1x64x25) (s₂ := S1x8x64x25) (1 : Fin 4) _ _ concatenates_S1x1x64x25_S1x8x64x25_S1x9x64x25_d1 (idx_main_v5 j s.succ) rfl rfl (tailIdx j s)
    (fun b hb => match b, hb with
      | ⟨0, _⟩, _ => rfl
      | ⟨1, _⟩, hb => absurd rfl hb
      | ⟨2, _⟩, _ => rfl
      | ⟨3, _⟩, _ => rfl)
    (by show s.val + 1 = (s.succ).val; rw [Fin.val_succ])

/-- A row index read back through the reshape, the transpose and slot 0 is itself: its two unit coordinates are 0. -/
theorem head_row (i : S1x64x1x25.Idx) : idx_main_v2 (headIdx (idx_main_v6 i)) = i := by
  have h0 : (i 0).val < 1 := (i 0).isLt
  have h1 : (i 1).val < 64 := (i 1).isLt
  have h2 : (i 2).val < 1 := (i 2).isLt
  have h3 : (i 3).val < 25 := (i 3).isLt
  funext a; apply Fin.ext
  match a with
  | ⟨0, _⟩ => show 0 = (i 0).val; omega
  | ⟨1, _⟩ => show ((((i 0).val * 64 + (i 1).val) * 1 + (i 2).val) * 25 + (i 3).val) / 25 % 64 = (i 1).val; omega
  | ⟨2, _⟩ => show 0 = (i 2).val; omega
  | ⟨3, _⟩ => show ((((i 0).val * 64 + (i 1).val) * 1 + (i 2).val) * 25 + (i 3).val) % 25 = (i 3).val; omega

/-- and through the reshape, a kept slot and the slice it is that slot at the row's channel and joint. -/
theorem tail_slot (i : S1x64x1x25.Idx) (s : Fin 8) : idx_main_v3 (tailIdx (idx_main_v6 i) s) = slotAt i s.castSucc := by
  have h0 : (i 0).val < 1 := (i 0).isLt
  have h1 : (i 1).val < 64 := (i 1).isLt
  have h2 : (i 2).val < 1 := (i 2).isLt
  have h3 : (i 3).val < 25 := (i 3).isLt
  funext a; apply Fin.ext
  match a with
  | ⟨0, _⟩ => rfl
  | ⟨1, _⟩ => rfl
  | ⟨2, _⟩ => show ((((i 0).val * 64 + (i 1).val) * 1 + (i 2).val) * 25 + (i 3).val) / 25 % 64 = (i 1).val; omega
  | ⟨3, _⟩ => show ((((i 0).val * 64 + (i 1).val) * 1 + (i 2).val) * 25 + (i 3).val) % 25 = (i 3).val; omega

/-- The reference's result, as its last stage, is the layer's function of the arguments. -/
theorem result_eq (x0 x1 x2 x3 : (⟨S1x64x1x25, .f32⟩ : BufTy).Contents (Elt Ideal)) (x4 : (⟨S1x9x64x25, .f32⟩ : BufTy).Contents (Elt Ideal)) :
    val_main_v9 (F := Ideal) x0 x1 x2 x3 x4 = layer x0 x1 x2 x3 x4 := by
  funext i
  rw [val_main_v9_apply, val_main_v8_apply, val_main_v7_apply, val_main_v6_apply, val_main_v5_apply,
    val_main_call1_v0_apply, val_main_call1_cst_apply, val_main_call0_v0_apply, val_main_call0_cst_apply, val_main_cst_apply]
  simp only [Ideal.ofBits_def, Ideal.ofBits_zero_f32, Ideal.addf_def, Ideal.maximumf_def]
  rw [nine_terms, joined_head, val_main_v2_apply, head_row, val_main_v1_apply, val_main_v0_apply]
  simp only [Ideal.addf_def, joined_tail, val_main_v3_apply, tail_slot]
  rfl

end Cert.ReferenceIdeal.RefLayer

end
-- ==== Proof.lean ====
/-
  The online graph-convolution layer's FIFO shift, sum and two clamps: the kernel against its jnp reference, over the
  extended reals.

  Both programs compute, at channel `c` and joint `v`,

      max (max ((x1 + x2 + x3) + ∑ s < 8, fifo[s]) 0 + x_res) 0        (Proof/SlotSum.lean, `layer`).

  The kernel is one region of one grid point: it stages the four [1, 64, 1, 25] inputs whole and slots 0‥7 of the
  nine-slot buffer as one block (a block that ends inside the array, so its transfer is uncut), and stores one whole
  block. That it runs to the end, faults nowhere and leaves its arguments unchanged is Proof/WordBody.lean for the
  program as printed and Proof/IdealBody.lean for its idealization (one text at two float instances); that the stored
  block is `layer` of the arguments and covers the result array is Proof/OutLayer.lean. The reference joins the new
  frame in front of the eight old ones and sums nine slots from zero; read one operation at a time its result is
  `layer` too (Proof/RefLayer.lean) — nine terms from zero are the first plus the other eight, and addition of
  extended reals is associative with unit 0, at the infinities as well, so the precondition is never opened. The
  idealization rewrote no operation, so there is nothing to preserve.
-/
import proofs.«161999_j70557722739217_2_alg».proof.Defs
import proofs.«161999_j70557722739217_2_alg».proof.Proof.Gen.Kernel
import proofs.«161999_j70557722739217_2_alg».proof.Proof.Gen.KernelIdeal
import proofs.«161999_j70557722739217_2_alg».proof.Proof.Gen.ReferenceIdeal
import proofs.«161999_j70557722739217_2_alg».proof.Proof.Gen.Pre_finite_inputs
import proofs.«161999_j70557722739217_2_alg».proof.Proof.Gen.ReferenceIdeal.Run
import proofs.«161999_j70557722739217_2_alg».proof.Proof.Gen.ReferenceIdeal.Read
import proofs.«161999_j70557722739217_2_alg».proof.Proof.WordBody
import proofs.«161999_j70557722739217_2_alg».proof.Proof.IdealBody
import proofs.«161999_j70557722739217_2_alg».proof.Proof.OutLayer
import proofs.«161999_j70557722739217_2_alg».proof.Proof.RefLayer

noncomputable section

namespace Cert.Proof

open Idealize.ShloMosaic Idealize.SL.Sem

/-- The program as printed runs and leaves its arguments unchanged. -/
theorem frame_word : Cert.frame_Kernel := fun m ρ _ => Cert.Kernel.Body.frame (F := Bits) m ρ

/-- So does its idealization. -/
theorem frame_ideal : Cert.frame_KernelIdeal := fun m ρ _ => Cert.KernelIdeal.Body.frame (F := Ideal) m ρ

/-- The reference is host operations only: its run, the result dropped. -/
theorem frame_ref : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the arguments both programs end with `layer` of the arguments. -/
theorem algebraic : Cert.algebraic_KernelIdeal_ReferenceIdeal := by
  intro m ρ m' ρ' _ hagree
  refine ⟨_, Cert.KernelIdeal.OutLayer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefLayer.result_eq,
    (hagree c).1, (hagree c).2.1, (hagree c).2.2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
